-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel

variable [Facts]

def fn {F : FTy → Type} [FloatOps F] (main_arg0 : FVec F S8388608x2 .f32) (main_arg1 : FVec F S8388608x2 .f32) (main_arg2 : FVec F S8388608x2 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S8388608x2 .f32 := Host.absf main_arg1
  let main_cst_0 : FVec F S_ .f32 := constant S_ .f32 0x7F800000#32
  let main_v5 : FVec F S8388608x2 .f32 := broadcastInDim S8388608x2 ![] bcast_S_S8388608x2 main_cst_0
  let main_v6 : IVec S8388608x2 1 := cmpf .olt main_v4 main_v5
  let main_c_1 : IVec S_ 1 := constantI S_ 1 1#1
  let main_v7 : IVec S_ 1 := (fun x v => Host.reduce IntOp.andi x v reducesTo_S8388608x2_S_d0_1 h_S_) main_v6 main_c_1
  let main_v8 : IVec S_ 1 := andi main_v3 main_v7
  let main_v9 : FVec F S8388608x2 .f32 := Host.absf main_arg2
  let main_cst_2 : FVec F S_ .f32 := constant S_ .f32 0x7F800000#32
  let main_v10 : FVec F S8388608x2 .f32 := broadcastInDim S8388608x2 ![] bcast_S_S8388608x2 main_cst_2
  let main_v11 : IVec S8388608x2 1 := cmpf .olt main_v9 main_v10
  let main_c_3 : IVec S_ 1 := constantI S_ 1 1#1
  let main_v12 : IVec S_ 1 := (fun x v => Host.reduce IntOp.andi x v reducesTo_S8388608x2_S_d0_1 h_S_) main_v11 main_c_3
  let main_v13 : IVec S_ 1 := andi main_v8 main_v12
  main_v13
-- ==== Kernel.lean ====
abbrev S8388608x2 : Shape := ⟨2, ![8388608, 2]⟩
abbrev S2048x2 : Shape := ⟨2, ![2048, 2]⟩
abbrev S2048x1 : Shape := ⟨2, ![2048, 1]⟩
abbrev S2048 : Shape := ⟨1, ![2048]⟩

abbrev nBuf : Space → Nat
  | .hbm => 4
  | .vmem => 8
  | .smem => 0
  | _ => 0

abbrev bufTy : (tb : Table) → Fin (tcTables nBuf tb) → BufTy
  | .hbm, ⟨0, _⟩ => ⟨S8388608x2, .f32⟩
  | .hbm, ⟨1, _⟩ => ⟨S8388608x2, .f32⟩
  | .hbm, ⟨2, _⟩ => ⟨S8388608x2, .f32⟩
  | .hbm, ⟨3, _⟩ => ⟨S8388608x2, .f32⟩
  | .local _ .vmem, ⟨0, _⟩ => ⟨S2048x2, .f32⟩
  | .local _ .vmem, ⟨1, _⟩ => ⟨S2048x2, .f32⟩
  | .local _ .vmem, ⟨2, _⟩ => ⟨S2048x2, .f32⟩
  | .local _ .vmem, ⟨3, _⟩ => ⟨S2048x2, .f32⟩
  | .local _ .vmem, ⟨4, _⟩ => ⟨S2048x2, .f32⟩
  | .local _ .vmem, ⟨5, _⟩ => ⟨S2048x2, .f32⟩
  | .local _ .vmem, ⟨6, _⟩ => ⟨S2048x2, .f32⟩
  | .local _ .vmem, ⟨7, _⟩ => ⟨S2048x2, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x2_S2048x2_0_0 : ∀ a, (![0, 0] : Fin 2 → Nat) a + S2048x2.size a ≤ S2048x2.size a
  h_S2048x2 : 0 < S2048x2.numel
  slices_S2048x2_o0_0_S2048x1 : S2048x2.Slices ![0, 0] S2048x1
  shapeCasts_S2048x1_S2048 : S2048x1.ShapeCasts S2048
  slices_S2048x2_o0_1_S2048x1 : S2048x2.Slices ![0, 1] S2048x1
  shapeCasts_S2048_S2048x1 : S2048.ShapeCasts S2048x1
  concatenates_S2048x1_S2048x1_S2048x2_d1 : Shape.Concatenates [S2048x1, S2048x1] S2048x2 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S8388608x2.size a
  hwx0_0 : ∀ i : grid0.Coords, EltTy.bits .f32 = 32 ∨ (Rect.block (s := S8388608x2) S2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S8388608x2.size a
  hwx0_1 : ∀ i : grid0.Coords, EltTy.bits .f32 = 32 ∨ (Rect.block (s := S8388608x2) S2048x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2.size a ≤ S8388608x2.size a
  hwx0_2 : ∀ i : grid0.Coords, EltTy.bits .f32 = 32 ∨ (Rect.block (s := S8388608x2) S2048x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2.size a ≤ S8388608x2.size a
  hwx0_3 : ∀ i : grid0.Coords, EltTy.bits .f32 = 32 ∨ (Rect.block (s := S8388608x2) S2048x2.size (cc0_transform_3 i) (hinb0_3 i)).WholeWords (EltTy.packing .f32)

variable [Facts₀]

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S8388608x1 : Shape := ⟨2, ![8388608, 1]⟩
abbrev S8388608 : Shape := ⟨1, ![8388608]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S8388608x2, .f32⟩
  | .hbm, ⟨2, _⟩ => ⟨S8388608x2, .f32⟩
  | .hbm, ⟨3, _⟩ => ⟨S8388608x1, .f32⟩
  | .hbm, ⟨4, _⟩ => ⟨S8388608, .f32⟩
  | .hbm, ⟨5, _⟩ => ⟨S8388608x1, .f32⟩
  | .hbm, ⟨6, _⟩ => ⟨S8388608, .f32⟩
  | .hbm, ⟨7, _⟩ => ⟨S8388608x1, .f32⟩
  | .hbm, ⟨8, _⟩ => ⟨S8388608, .f32⟩
  | .hbm, ⟨9, _⟩ => ⟨S8388608x1, .f32⟩
  | .hbm, ⟨10, _⟩ => ⟨S8388608, .f32⟩
  | .hbm, ⟨11, _⟩ => ⟨S8388608, .f32⟩
  | .hbm, ⟨12, _⟩ => ⟨S8388608, .f32⟩
  | .hbm, ⟨13, _⟩ => ⟨S_, .f32⟩
  | .hbm, ⟨14, _⟩ => ⟨S8388608, .f32⟩
  | .hbm, ⟨15, _⟩ => ⟨S8388608, .f32⟩
  | .hbm, ⟨16, _⟩ => ⟨S_, .f32⟩
  | .hbm, ⟨17, _⟩ => ⟨S8388608, .f32⟩
  | .hbm, ⟨18, _⟩ => ⟨S8388608, .f32⟩
  | .hbm, ⟨19, _⟩ => ⟨S_, .f32⟩
  | .hbm, ⟨20, _⟩ => ⟨S8388608, .f32⟩
  | .hbm, ⟨21, _⟩ => ⟨S8388608, .f32⟩
  | .hbm, ⟨22, _⟩ => ⟨S_, .f32⟩
  | .hbm, ⟨23, _⟩ => ⟨S8388608, .f32⟩
  | .hbm, ⟨24, _⟩ => ⟨S8388608, .f32⟩
  | .hbm, ⟨25, _⟩ => ⟨S_, .f32⟩
  | .hbm, ⟨26, _⟩ => ⟨S8388608, .f32⟩
  | .hbm, ⟨27, _⟩ => ⟨S8388608, .f32⟩
  | .hbm, ⟨28, _⟩ => ⟨S_, .f32⟩
  | .hbm, ⟨29, _⟩ => ⟨S8388608, .f32⟩
  | .hbm, ⟨30, _⟩ => ⟨S8388608, .f32⟩
  | .hbm, ⟨31, _⟩ => ⟨S8388608, .f32⟩
  | .hbm, ⟨32, _⟩ => ⟨S8388608, .f32⟩
  | .hbm, ⟨33, _⟩ => ⟨S_, .f32⟩
  | .hbm, ⟨34, _⟩ => ⟨S8388608, .f32⟩
  | .hbm, ⟨35, _⟩ => ⟨S8388608, .f32⟩
  | .hbm, ⟨36, _⟩ => ⟨S8388608, .f32⟩
  | .hbm, ⟨37, _⟩ => ⟨S8388608, .f32⟩
  | .hbm, ⟨38, _⟩ => ⟨S8388608, .f32⟩
  | .hbm, ⟨39, _⟩ => ⟨S_, .f32⟩
  | .hbm, ⟨40, _⟩ => ⟨S8388608, .f32⟩
  | .hbm, ⟨41, _⟩ => ⟨S8388608, .f32⟩
  | .hbm, ⟨42, _⟩ => ⟨S_, .f32⟩
  | .hbm, ⟨43, _⟩ => ⟨S8388608, .f32⟩
  | .hbm, ⟨44, _⟩ => ⟨S8388608, .f32⟩
  | .hbm, ⟨45, _⟩ => ⟨S_, .f32⟩
  | .hbm, ⟨46, _⟩ => ⟨S8388608, .f32⟩
  | .hbm, ⟨47, _⟩ => ⟨S8388608, .f32⟩
  | .hbm, ⟨48, _⟩ => ⟨S8388608, .f32⟩
  | .hbm, ⟨49, _⟩ => ⟨S8388608, .f32⟩
  | .hbm, ⟨50, _⟩ => ⟨S8388608, .f32⟩
  | .hbm, ⟨51, _⟩ => ⟨S8388608, .f32⟩
  | .hbm, ⟨52, _⟩ => ⟨S8388608, .f32⟩
  | .hbm, ⟨53, _⟩ => ⟨S_, .f32⟩
  | .hbm, ⟨54, _⟩ => ⟨S8388608, .f32⟩
  | .hbm, ⟨55, _⟩ => ⟨S8388608, .f32⟩
  | .hbm, ⟨56, _⟩ => ⟨S8388608, .f32⟩
  | .hbm, ⟨57, _⟩ => ⟨S8388608, .f32⟩
  | .hbm, ⟨58, _⟩ => ⟨S8388608, .f32⟩
  | .hbm, ⟨59, _⟩ => ⟨S8388608x1, .f32⟩
  | .hbm, ⟨60, _⟩ => ⟨S8388608, .f32⟩
  | .hbm, ⟨61, _⟩ => ⟨S8388608, .f32⟩
  | .hbm, ⟨62, _⟩ => ⟨S8388608x1, .f32⟩
  | .hbm, ⟨63, _⟩ => ⟨S8388608, .f32⟩
  | .hbm, ⟨64, _⟩ => ⟨S8388608, .f32⟩
  | .hbm, ⟨65, _⟩ => ⟨S8388608, .f32⟩
  | .hbm, ⟨66, _⟩ => ⟨S8388608, .f32⟩
  | .hbm, ⟨67, _⟩ => ⟨S8388608, .f32⟩
  | .hbm, ⟨68, _⟩ => ⟨S8388608, .f32⟩
  | .hbm, ⟨69, _⟩ => ⟨S8388608, .f32⟩
  | .hbm, ⟨70, _⟩ => ⟨S8388608, .f32⟩
  | .hbm, ⟨71, _⟩ => ⟨S8388608, .f32⟩
  | .hbm, ⟨72, _⟩ => ⟨S8388608, .f32⟩
  | .hbm, ⟨73, _⟩ => ⟨S8388608, .f32⟩
  | .hbm, ⟨74, _⟩ => ⟨S8388608, .f32⟩
  | .hbm, ⟨75, _⟩ => ⟨S8388608, .f32⟩
  | .hbm, ⟨76, _⟩ => ⟨S8388608x1, .f32⟩
  | .hbm, ⟨77, _⟩ => ⟨S8388608x1, .f32⟩
  | .hbm, ⟨78, _⟩ => ⟨S8388608x2, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]

class Facts₀ : Prop where
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1

variable [Facts₀]

class Facts : Prop extends Facts₀ where

variable [Facts]
-- ==== Proof.ArmAccel.lean ====
/-
  The forward dynamics of a planar two-link arm, one row at a time, on the extended reals.

  A row of the three argument arrays holds the joint angles (q₁, q₂), the joint rates (w₁, w₂) and the applied
  torques (u₁, u₂). Writing c₂ = cos q₂ and s₂ = sin q₂, the symmetric inertia matrix of the arm is
      M₁₁ = a + 1·c₂,    M₁₂ = d + ½·c₂,    M₂₂ = d,
  the gravity terms are
      g₂ = k₂·cos (q₁ + q₂),    g₁ = k₁·cos q₁ + k₂·cos (q₁ + q₂),
  the Coriolis, centrifugal and gravity bias is
      h₁ = (−½·s₂)·(2·w₁·w₂ + w₂·w₂) + g₁,    h₂ = ½·s₂·w₁·w₁ + g₂,
  and the joint accelerations solve M·(acc₁, acc₂) = (u₁ − h₁, u₂ − h₂) by Cramer's rule:
      det = M₁₁·M₂₂ − M₁₂·M₁₂,
      acc₁ = (M₂₂·(u₁ − h₁) − M₁₂·(u₂ − h₂)) / det,    acc₂ = (M₁₁·(u₂ − h₂) − M₁₂·(u₁ − h₁)) / det.
  The coefficients a, d, k₁, k₂, ½, −½, 1 and 2 are the extended reals their binary32 patterns denote; both programs
  carry the same eight patterns, so none of them is ever evaluated. Sums and products are the extended reals' own,
  the quotient is the ideal instance's `Ideal.div`, and the order and grouping of the operations is the one written
  above: no law of arithmetic is used anywhere, so nothing here needs the inputs to be finite.

  `rowsOf` reads this row function over a whole [8388608, 2] array: the entry at (r, k) is acceleration k of row r.
-/
import Idealize.ShloMosaic.PureOps.Ideal
import Idealize.ShloMosaic.Lib.ValueIdx

noncomputable section

namespace Cert.TwoLink

open Idealize.ShloMosaic Idealize.ShloMosaic.ValueIdx

/-! ## The coefficients, as the values of their binary32 patterns -/

/-- a = I₁ + m₁c₁² + I₂ + m₂(l₁² + c₂²), printed 1.7. -/
abbrev coefA : EReal := Ideal.ofBits .f32 0x3FD9999A#32
/-- d = I₂ + m₂c₂², printed 0.35. -/
abbrev coefD : EReal := Ideal.ofBits .f32 0x3EB33333#32
/-- k₁ = (m₁c₁ + m₂l₁)·g, printed 14.715. -/
abbrev coefK1 : EReal := Ideal.ofBits .f32 0x416B70A4#32
/-- k₂ = m₂c₂·g, printed 4.905. -/
abbrev coefK2 : EReal := Ideal.ofBits .f32 0x409CF5C3#32
/-- 2·m₂l₁c₂ = 1. -/
abbrev coefOne : EReal := Ideal.ofBits .f32 0x3F800000#32
/-- m₂l₁c₂ = ½. -/
abbrev coefHalf : EReal := Ideal.ofBits .f32 0x3F000000#32
/-- −m₂l₁c₂ = −½. -/
abbrev coefNegHalf : EReal := Ideal.ofBits .f32 0xBF000000#32
/-- The 2 of 2·w₁·w₂. -/
abbrev coefTwo : EReal := Ideal.ofBits .f32 0x40000000#32

/-! ## One row -/

/-- M₁₁ = a + 1·cos q₂. -/
def inertia11 (q2 : EReal) : EReal := coefA + coefOne * Ideal.cos q2
/-- M₁₂ = d + ½·cos q₂. -/
def inertia12 (q2 : EReal) : EReal := coefD + coefHalf * Ideal.cos q2
/-- g₂ = k₂·cos (q₁ + q₂). -/
def gravity2 (q1 q2 : EReal) : EReal := coefK2 * Ideal.cos (q1 + q2)
/-- g₁ = k₁·cos q₁ + k₂·cos (q₁ + q₂). -/
def gravity1 (q1 q2 : EReal) : EReal := coefK1 * Ideal.cos q1 + coefK2 * Ideal.cos (q1 + q2)
/-- h₁ = (−½·sin q₂)·(2·w₁·w₂ + w₂·w₂) + g₁. -/
def bias1 (q1 q2 w1 w2 : EReal) : EReal :=
  coefNegHalf * Ideal.sin q2 * (coefTwo * w1 * w2 + w2 * w2) + gravity1 q1 q2
/-- h₂ = ½·sin q₂·w₁·w₁ + g₂. -/
def bias2 (q1 q2 w1 : EReal) : EReal := coefHalf * Ideal.sin q2 * w1 * w1 + gravity2 q1 q2
/-- det M = M₁₁·M₂₂ − M₁₂·M₁₂. -/
def inertiaDet (q2 : EReal) : EReal := inertia11 q2 * coefD - inertia12 q2 * inertia12 q2

/-- The first joint's acceleration: (M₂₂·(u₁ − h₁) − M₁₂·(u₂ − h₂)) / det M. -/
def accel1 (q1 q2 w1 w2 u1 u2 : EReal) : EReal :=
  Ideal.div (coefD * (u1 - bias1 q1 q2 w1 w2) - inertia12 q2 * (u2 - bias2 q1 q2 w1)) (inertiaDet q2)

/-- The second joint's acceleration: (M₁₁·(u₂ − h₂) − M₁₂·(u₁ − h₁)) / det M. -/
def accel2 (q1 q2 w1 w2 u1 u2 : EReal) : EReal :=
  Ideal.div (inertia11 q2 * (u2 - bias2 q1 q2 w1) - inertia12 q2 * (u1 - bias1 q1 q2 w1 w2)) (inertiaDet q2)

/-- Both accelerations of a row, by joint. -/
def accel (q1 q2 w1 w2 u1 u2 : EReal) (k : Fin 2) : EReal :=
  match k with
  | ⟨0, _⟩ => accel1 q1 q2 w1 w2 u1 u2
  | ⟨1, _⟩ => accel2 q1 q2 w1 w2 u1 u2

/-! ## Every row of an array -/

/-- The acceleration array of the angle, rate and torque arrays: entry (r, k) is acceleration k of row r, a function
    of the six entries of row r alone. -/
def rowsOf {n : Nat} (q w u : (⟨2, ![n, 2]⟩ : Shape).Idx → EReal) : (⟨2, ![n, 2]⟩ : Shape).Idx → EReal :=
  fun i => accel (q (ix2 (i 0) 0)) (q (ix2 (i 0) 1)) (w (ix2 (i 0) 0)) (w (ix2 (i 0) 1))
    (u (ix2 (i 0) 0)) (u (ix2 (i 0) 1)) (i 1)

/-- `rowsOf` at an index given by its coordinates. -/
theorem rowsOf_ix2 {n : Nat} (q w u : (⟨2, ![n, 2]⟩ : Shape).Idx → EReal) (r : Fin n) (k : Fin 2) :
    rowsOf q w u (ix2 r k) = accel (q (ix2 r 0)) (q (ix2 r 1)) (w (ix2 r 0)) (w (ix2 r 1)) (u (ix2 r 0)) (u (ix2 r 1)) k :=
  rfl

end Cert.TwoLink

end
-- ==== Proof.BlockAccel.lean ====
/-
  What the kernel body leaves in one output block, at the ideal instance.

  A grid point holds one block of 2048 rows of each of the angle, rate and torque arrays. The body takes the two
  columns of each block apart (a unit-stride slice of one column, then the cast that drops the unit axis), computes
  both joint accelerations as vectors of 2048 entries by pointwise operations on those six columns, turns each
  result back into a one-column block and joins the two columns side by side. Read at row p and column k of the
  output block this is acceleration k of the arm at the six entries of row p of the three input blocks: each column
  read is the block's entry at (p, column), every pointwise operation is the extended reals' own at that row, and
  the joined block at column k is the k-th of the two results. The body's vector cosine, sine and quotient are at the
  ideal instance the functions the row formula is written with.
-/
import proofs.«126508_j38482906972929_2_alg».proof.Proof.Gen.KernelIdeal.Value
import proofs.«126508_j38482906972929_2_alg».proof.Proof.ArmAccel
import Idealize.ShloMosaic.Lib.Pipeline.Value
import Idealize.ShloMosaic.Lib.ValueIdx

noncomputable section

namespace Cert.KernelIdeal.Block

open Cert.KernelIdeal Cert.KernelIdeal.Gen Cert.KernelIdeal.Value Idealize.ShloMosaic Idealize.ShloMosaic.ValueIdx Cert.TwoLink

/-! ## The layout operations of the body, read at a row -/

/-- Column 0 of a block as a vector: its entry at row p is the block's entry at (p, 0). -/
theorem column0_apply {α : Type} (P : S2048x2.Idx → α) (p : Fin 2048) :
    shapeCast S2048 (extractStridedSlice S2048x1 ![0, 0] P slices_S2048x2_o0_0_S2048x1) shapeCasts_S2048x1_S2048 (ix1 p) = P (ix2 p 0) := by
  rw [shapeCast_apply _ shapeCasts_S2048x1_S2048 (ix1 p) (ix2 p 0)
    (by rw [Shape.rowMajor_val_two, Shape.rowMajor_val_one]; show p.val * 1 + 0 = p.val; omega)]
  exact extractStridedSlice_apply ![0, 0] P slices_S2048x2_o0_0_S2048x1 (ix2 p 0) (ix2 p 0) (fun a => match a with
    | ⟨0, _⟩ => by show p.val = 0 + p.val; omega
    | ⟨1, _⟩ => by show 0 = 0 + 0; rfl)

/-- Column 1 of a block as a vector: its entry at row p is the block's entry at (p, 1). -/
theorem column1_apply {α : Type} (P : S2048x2.Idx → α) (p : Fin 2048) :
    shapeCast S2048 (extractStridedSlice S2048x1 ![0, 1] P slices_S2048x2_o0_1_S2048x1) shapeCasts_S2048x1_S2048 (ix1 p) = P (ix2 p 1) := by
  rw [shapeCast_apply _ shapeCasts_S2048x1_S2048 (ix1 p) (ix2 p 0)
    (by rw [Shape.rowMajor_val_two, Shape.rowMajor_val_one]; show p.val * 1 + 0 = p.val; omega)]
  exact extractStridedSlice_apply ![0, 1] P slices_S2048x2_o0_1_S2048x1 (ix2 p 0) (ix2 p 1) (fun a => match a with
    | ⟨0, _⟩ => by show p.val = 0 + p.val; omega
    | ⟨1, _⟩ => by show 1 = 1 + 0; rfl)

/-- A vector of 2048 entries recast as a one-column block: its entry at (p, 0) is the vector's entry at p. -/
theorem asColumn_apply {α : Type} (v : S2048.Idx → α) (p : Fin 2048) :
    shapeCast S2048x1 v shapeCasts_S2048_S2048x1 (ix2 p 0) = v (ix1 p) :=
  shapeCast_apply v shapeCasts_S2048_S2048x1 (ix2 p 0) (ix1 p)
    (by rw [Shape.rowMajor_val_two, Shape.rowMajor_val_one]; show p.val = p.val * 1 + 0; omega)

/-! ## The block the body computes -/

/-- The block the body's store leaves, as the generated value leg reads it (one index-by-index function of the three
    loads: the torque block first, then the angle block, then the rate block), at row p and column k: acceleration
    k of the arm at row p of the angle, rate and torque blocks. -/
theorem block_row (P0 P1 P2 : Vec Ideal S2048x2 .f32) (p : Fin 2048) (k : Fin 2) :
    E3 (F := Ideal) P0 P1 P2 (ix2 p k)
      = accel (P1 (ix2 p 0)) (P1 (ix2 p 1)) (P2 (ix2 p 0)) (P2 (ix2 p 1)) (P0 (ix2 p 0)) (P0 (ix2 p 1)) k := by
  match k with
  | ⟨0, _⟩ =>
    show Cat3_0 P0 P1 P2 ⟨0, by decide⟩ (ix2 p 0) = accel1 _ _ _ _ _ _
    dsimp only [Cat3_0]
    rw [asColumn_apply]
    simp only [divf_apply, subf_apply, mulf_apply, addf_apply, broadcast_apply, cos, sin, column0_apply, column1_apply, k0_pay9,
      Ideal.cos_def, Ideal.sin_def]
    rfl
  | ⟨1, _⟩ =>
    show Cat3_0 P0 P1 P2 ⟨1, by decide⟩ (ix2 p 0) = accel2 _ _ _ _ _ _
    dsimp only [Cat3_0]
    rw [asColumn_apply]
    simp only [divf_apply, subf_apply, mulf_apply, addf_apply, broadcast_apply, cos, sin, column0_apply, column1_apply, k0_pay9,
      Ideal.cos_def, Ideal.sin_def]
    rfl

/-- The body's loads and its store are through the whole staging buffer: offsets zero on both axes. -/
theorem offsets_zero : (![0, 0] : Fin 2 → Nat) = fun _ => 0 := funext fun a => match a with | ⟨0, _⟩ => rfl | ⟨1, _⟩ => rfl

/-- What the output window's staging buffer holds after the body, from the angle, rate and torque blocks `x0`, `x1`,
    `x2` the three input windows hold: at row p and column k, acceleration k of the arm at row p of the three blocks. -/
theorem body_block (x0 x1 x2 : Vec Ideal S2048x2 .f32) (p : Fin 2048) (k : Fin 2) :
    out0_3 x0 x1 x2 (ix2 p k)
      = accel (x0 (ix2 p 0)) (x0 (ix2 p 1)) (x1 (ix2 p 0)) (x1 (ix2 p 1)) (x2 (ix2 p 0)) (x2 (ix2 p 1)) k := by
  unfold out0_3
  rw [canon3_eq]
  simp only [View.ld_unit_zero (S := S2048x2) offsets_zero]
  exact block_row x2 x0 x1 p k

end Cert.KernelIdeal.Block

end
-- ==== Proof.WholeArray.lean ====
/-
  From the kernel's blocks to its whole result array, at the ideal instance.

  The grid has 4096 points. At point t each of the four windows is on block t of its array: rows 2048·t to
  2048·t + 2047, both columns. So row p of an input block at point t is row 2048·t + p of its argument array, what
  the body leaves in the output block at point t is, entry by entry, the acceleration array of the three argument
  arrays read through block t, and every point writes its block back. The 4096 blocks tile the 8388608 rows (row r
  is in block r / 2048), so after the run the result array is the acceleration array of the arguments everywhere.
-/
import proofs.«126508_j38482906972929_2_alg».proof.Proof.Gen.KernelIdeal.Value
import proofs.«126508_j38482906972929_2_alg».proof.Proof.ArmAccel
import proofs.«126508_j38482906972929_2_alg».proof.Proof.BlockAccel
import Idealize.ShloMosaic.Lib.Pipeline.Value
import Idealize.ShloMosaic.Lib.ValueIdx

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx Cert.TwoLink
open Idealize.ShloMosaic.Pipeline (Dat)

variable (m : (ℓ : Loc nD τ sig) → Buf (Elt Ideal) ℓ) (ρ : Dev nD → PrngReg)

/-! ## Where the windows are at a point -/

/-- At point t every window is on block (t, 0) of its array: the printed index maps, decided over the 4096 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the angle window's block at point t is row 2048·t + p of the angle array. -/
theorem angle_block_apply (c : Dev nD) (t : Fin cfg0.N) (p : Fin 2048) (k : Fin 2) (r : Fin 8388608)
    (hr : r.val = 2048 * t.val + p.val) :
    (iblk m c 0 t : Vec Ideal S2048x2 .f32) (ix2 p k) = (m ((c : Thread nD τ).loc main_arg0) : S8388608x2.Idx → EReal) (ix2 r k) := by
  have e := block_index t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 2048 + 1 * p.val = r.val; rw [e.1, hr]; omega
  | ⟨1, _⟩ => show win0_0.index t (1 : Fin 2) * 2 + 1 * k.val = k.val; rw [e.2.1]; omega

/-- Row p of the rate window's block at point t is row 2048·t + p of the rate array. -/
theorem rate_block_apply (c : Dev nD) (t : Fin cfg0.N) (p : Fin 2048) (k : Fin 2) (r : Fin 8388608)
    (hr : r.val = 2048 * t.val + p.val) :
    (iblk m c 1 t : Vec Ideal S2048x2 .f32) (ix2 p k) = (m ((c : Thread nD τ).loc main_arg1) : S8388608x2.Idx → EReal) (ix2 r k) := by
  have e := block_index t
  unfold iblk
  rw [View.read_apply]
  show V m c main_arg1 _ = m ((c : Thread nD τ).loc main_arg1) _
  unfold V
  congr 1
  funext a
  apply Fin.ext
  match a with
  | ⟨0, _⟩ => show win0_1.index t (0 : Fin 2) * 2048 + 1 * p.val = r.val; rw [e.2.2.1, hr]; omega
  | ⟨1, _⟩ => show win0_1.index t (1 : Fin 2) * 2 + 1 * k.val = k.val; rw [e.2.2.2.1]; omega

/-- Row p of the torque window's block at point t is row 2048·t + p of the torque array. -/
theorem torque_block_apply (c : Dev nD) (t : Fin cfg0.N) (p : Fin 2048) (k : Fin 2) (r : Fin 8388608)
    (hr : r.val = 2048 * t.val + p.val) :
    (iblk m c 2 t : Vec Ideal S2048x2 .f32) (ix2 p k) = (m ((c : Thread nD τ).loc main_arg2) : S8388608x2.Idx → EReal) (ix2 r k) := by
  have e := block_index t
  unfold iblk
  rw [View.read_apply]
  show V m c main_arg2 _ = m ((c : Thread nD τ).loc main_arg2) _
  unfold V
  congr 1
  funext a
  apply Fin.ext
  match a with
  | ⟨0, _⟩ => show win0_2.index t (0 : Fin 2) * 2048 + 1 * p.val = r.val; rw [e.2.2.2.2.1, hr]; omega
  | ⟨1, _⟩ => show win0_2.index t (1 : Fin 2) * 2 + 1 * k.val = k.val; rw [e.2.2.2.2.2.1]; omega

/-! ## What a point writes back -/

/-- The acceleration array of the three argument arrays as a device finds them. -/
abbrev accelArray (c : Dev nD) : S8388608x2.Idx → EReal :=
  rowsOf (n := 8388608) (m ((c : Thread nD τ).loc main_arg0)) (m ((c : Thread nD τ).loc main_arg1)) (m ((c : Thread nD τ).loc main_arg2))

/-- What the body leaves in the output block at point t, at row p and column k, is the acceleration array at the
    array index under it: row 2048·t + p, column k. -/
theorem body_at_point (c : Dev nD) (t : Fin cfg0.N) (p : Fin 2048) (k : Fin 2) (i : S8388608x2.Idx)
    (hi0 : (i 0).val = 2048 * t.val + p.val) (hi1 : (i 1).val = k.val) :
    out0_3 (iblk m c 0 t) (iblk m c 1 t) (iblk m c 2 t) (ix2 p k) = accelArray m c i := by
  obtain ⟨r, k', rfl⟩ : ∃ (r : Fin 8388608) (k' : Fin 2), i = ix2 r k' := ⟨i 0, i 1, eq_ix2 i⟩
  obtain rfl : k' = k := Fin.ext hi1
  refine (body_block (iblk m c 0 t) (iblk m c 1 t) (iblk m c 2 t) p k').trans ?_
  rw [angle_block_apply m c t p 0 r hi0, angle_block_apply m c t p 1 r hi0,
    rate_block_apply m c t p 0 r hi0, rate_block_apply m c t p 1 r hi0,
    torque_block_apply m c t p 0 r hi0, torque_block_apply m c t p 1 r hi0]
  rfl

/-- WHAT POINT t WRITES BACK is block t of the acceleration array. -/
theorem flushed_rows (c : Dev nD) (t : Fin cfg0.N) :
    (dats m 0 c).flushed 3 t = ((cfg0.win 3).blk t).view.read (Elt Ideal) (accelArray m c) := by
  rw [flushed3]
  have e := block_index t
  refine funext fun (j : S2048x2.Idx) => ?_
  show out0_3 (iblk m c 0 t) (iblk m c 1 t) (iblk m c 2 t) j = accelArray m c (((cfg0.win 3).blk t).view.emb j)
  refine (congrArg (out0_3 (iblk m c 0 t) (iblk m c 1 t) (iblk m c 2 t)) (eq_ix2 j)).trans ?_
  refine body_at_point m c t (j 0) (j 1) _ ?_ ?_
  · show win0_3.index t (0 : Fin 2) * 2048 + 1 * (j 0).val = 2048 * t.val + (j 0).val
    rw [e.2.2.2.2.2.2.1]; omega
  · show win0_3.index t (1 : Fin 2) * 2 + 1 * (j 1).val = (j 1).val
    rw [e.2.2.2.2.2.2.2]; omega

/-! ## The blocks tile the array -/

/-- Every index of the result array is in the block of the point its row, over 2048, names; that point writes back. -/
theorem covered (i : S8388608x2.Idx) :
    ∃ t : Fin cfg0.N, (cfg0.win 3).flush t = true ∧ i ∈ ((cfg0.win 3).blk t).view.set := by
  have h0 : (i 0).val < 8388608 := (i 0).isLt
  have h1 : (i 1).val < 2 := (i 1).isLt
  have hN : grid0.N = 4096 := N_0
  let t : Fin cfg0.N := ⟨(i 0).val / 2048, by show (i 0).val / 2048 < grid0.N; rw [hN]; omega⟩
  have e := block_index t
  have ht : t.val = (i 0).val / 2048 := rfl
  refine ⟨t, flush0_3 t, ?_⟩
  show i ∈ ((View.whole main_v0).slice (win0_3.rect t)).set
  rw [View.set_slice_whole, Rect.mem_set_unit]
  intro a
  match a with
  | ⟨0, _⟩ =>
    show win0_3.index t (0 : Fin 2) * 2048 ≤ (i 0).val ∧ (i 0).val < win0_3.index t (0 : Fin 2) * 2048 + 2048
    rw [e.2.2.2.2.2.2.1, ht]; omega
  | ⟨1, _⟩ =>
    show win0_3.index t (1 : Fin 2) * 2 ≤ (i 1).val ∧ (i 1).val < win0_3.index t (1 : Fin 2) * 2 + 2
    rw [e.2.2.2.2.2.2.2]; omega

/-- THE RESULT ARRAY after the run is the acceleration array of the arguments. -/
theorem final_rows (c : Dev nD) : (dats m 0 c).arrAt 3 cfg0.N = accelArray m c :=
  (dats m 0 c).arrAt_eq_of_cover 3 (accelArray m c) (fun t _ => flushed_rows m c t) (covered)

/-! ## The run, read -/

/-- Every weakly fair execution of the idealized kernel terminates with the result array at the acceleration array of
    the argument arrays and the arguments unchanged. -/
theorem run : θ_run defs (onTc (τ := τ) (main (F := Ideal))) ⟨m, fun _ => 0, ρ⟩ fun r => ∀ c : Dev nD,
      r.2.mem ((c : Thread nD τ).loc main_v0) = accelArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_rows m c), (h c).2⟩) (run_blocks m ρ)

end Cert.KernelIdeal.Whole

end
-- ==== Proof.RefAccel.lean ====
/-
  The reference's result array, at the ideal instance, is the row formula of the arm read over the whole arrays.

  The reference takes the two columns of each argument array apart (a slice of one column, then a reshape to a
  vector of 8388608 entries), computes both joint accelerations as vectors by elementwise operations, and stacks the
  two vectors as the two columns of the result. Read at row r and column k this is acceleration k of the arm at the
  six entries of row r: each column vector at r is its array's entry at (r, column), a broadcast scalar at r is the
  scalar, every elementwise operation is the extended reals' own at that row, and the stacked array at column k is
  the k-th vector. The host's cosine, sine and quotient are at the ideal instance the functions the row formula is
  written with.
-/
import proofs.«126508_j38482906972929_2_alg».proof.Proof.Gen.ReferenceIdeal.Read
import proofs.«126508_j38482906972929_2_alg».proof.Proof.ArmAccel
import Idealize.ShloMosaic.Lib.Pipeline.Value
import Idealize.ShloMosaic.Lib.ValueIdx

noncomputable section

namespace Cert.ReferenceIdeal.Rows

open Cert.ReferenceIdeal Cert.ReferenceIdeal.Gen Cert.ReferenceIdeal.Read Idealize.ShloMosaic Idealize.ShloMosaic.ValueIdx Cert.TwoLink

/-! ## The six column vectors, read at a row -/

/-- The first joint's angles as a vector: at row r, the angle array's entry at (r, 0). -/
theorem angle1_apply (x : S8388608x2.Idx → EReal) (r : Fin 8388608) : val_main_v1 (F := Ideal) x (ix1 r) = x (ix2 r 0) := by
  rw [val_main_v1_apply, val_main_v0_apply]
  exact congrArg x (funext fun a => Fin.ext (by
    match a with
    | ⟨0, _⟩ => show r.val / 1 = r.val; omega
    | ⟨1, _⟩ => rfl))

/-- The second joint's angles as a vector: at row r, the angle array's entry at (r, 1). -/
theorem angle2_apply (x : S8388608x2.Idx → EReal) (r : Fin 8388608) : val_main_v3 (F := Ideal) x (ix1 r) = x (ix2 r 1) := by
  rw [val_main_v3_apply, val_main_v2_apply]
  exact congrArg x (funext fun a => Fin.ext (by
    match a with
    | ⟨0, _⟩ => show r.val / 1 = r.val; omega
    | ⟨1, _⟩ => show 1 + 0 = 1; rfl))

/-- The first joint's rates as a vector: at row r, the rate array's entry at (r, 0). -/
theorem rate1_apply (x : S8388608x2.Idx → EReal) (r : Fin 8388608) : val_main_v5 (F := Ideal) x (ix1 r) = x (ix2 r 0) := by
  rw [val_main_v5_apply, val_main_v4_apply]
  exact congrArg x (funext fun a => Fin.ext (by
    match a with
    | ⟨0, _⟩ => show r.val / 1 = r.val; omega
    | ⟨1, _⟩ => rfl))

/-- The second joint's rates as a vector: at row r, the rate array's entry at (r, 1). -/
theorem rate2_apply (x : S8388608x2.Idx → EReal) (r : Fin 8388608) : val_main_v7 (F := Ideal) x (ix1 r) = x (ix2 r 1) := by
  rw [val_main_v7_apply, val_main_v6_apply]
  exact congrArg x (funext fun a => Fin.ext (by
    match a with
    | ⟨0, _⟩ => show r.val / 1 = r.val; omega
    | ⟨1, _⟩ => show 1 + 0 = 1; rfl))

/-- The first joint's torques as a vector: at row r, the torque array's entry at (r, 0). -/
theorem torque1_apply (x : S8388608x2.Idx → EReal) (r : Fin 8388608) : val_main_v46 (F := Ideal) x (ix1 r) = x (ix2 r 0) := by
  rw [val_main_v46_apply, val_main_v45_apply]
  exact congrArg x (funext fun a => Fin.ext (by
    match a with
    | ⟨0, _⟩ => show r.val / 1 = r.val; omega
    | ⟨1, _⟩ => rfl))

/-- The second joint's torques as a vector: at row r, the torque array's entry at (r, 1). -/
theorem torque2_apply (x : S8388608x2.Idx → EReal) (r : Fin 8388608) : val_main_v49 (F := Ideal) x (ix1 r) = x (ix2 r 1) := by
  rw [val_main_v49_apply, val_main_v48_apply]
  exact congrArg x (funext fun a => Fin.ext (by
    match a with
    | ⟨0, _⟩ => show r.val / 1 = r.val; omega
    | ⟨1, _⟩ => show 1 + 0 = 1; rfl))

/-! ## The two acceleration vectors, read at a row -/

/-- The first joint's accelerations as a vector: at row r, the first acceleration of the arm at row r of the three
    arrays. Every stage between the column vectors and this one is elementwise or a broadcast scalar. -/
theorem accel1_apply (q w u : S8388608x2.Idx → EReal) (r : Fin 8388608) :
    val_main_v57 (F := Ideal) q w u (ix1 r)
      = accel1 (q (ix2 r 0)) (q (ix2 r 1)) (w (ix2 r 0)) (w (ix2 r 1)) (u (ix2 r 0)) (u (ix2 r 1)) := by
  simp only [
      val_main_v8_apply, val_main_v9_apply, val_main_cst_apply, val_main_v10_apply, val_main_v11_apply,
      val_main_cst_0_apply, val_main_v12_apply, val_main_v13_apply, val_main_cst_1_apply, val_main_v14_apply,
      val_main_v15_apply, val_main_cst_2_apply, val_main_v16_apply, val_main_v17_apply, val_main_cst_3_apply,
      val_main_v18_apply, val_main_v19_apply, val_main_cst_4_apply, val_main_v20_apply, val_main_v21_apply,
      val_main_v22_apply, val_main_v23_apply, val_main_cst_5_apply, val_main_v24_apply, val_main_v25_apply,
      val_main_v26_apply, val_main_v27_apply, val_main_v28_apply, val_main_cst_6_apply, val_main_v29_apply,
      val_main_v30_apply, val_main_cst_7_apply, val_main_v31_apply, val_main_v32_apply, val_main_cst_8_apply,
      val_main_v33_apply, val_main_v34_apply, val_main_v35_apply, val_main_v36_apply, val_main_v37_apply,
      val_main_v38_apply, val_main_v39_apply, val_main_cst_9_apply, val_main_v40_apply, val_main_v41_apply,
      val_main_v42_apply, val_main_v43_apply, val_main_v44_apply, val_main_v47_apply, val_main_v50_apply,
      val_main_v51_apply, val_main_v52_apply, val_main_v53_apply, val_main_v54_apply, val_main_v55_apply,
      val_main_v56_apply, val_main_v57_apply, val_main_v58_apply, val_main_v59_apply, val_main_v60_apply,
      val_main_v61_apply,
      angle1_apply, angle2_apply, rate1_apply, rate2_apply, torque1_apply, torque2_apply,
      Ideal.hostUnary_cos_def, Ideal.hostUnary_sin_def, Ideal.hostDivf_def, Ideal.mulf_def, Ideal.addf_def, Ideal.subf_def]
  rfl

/-- The second joint's accelerations as a vector: at row r, the second acceleration of the arm at row r. -/
theorem accel2_apply (q w u : S8388608x2.Idx → EReal) (r : Fin 8388608) :
    val_main_v61 (F := Ideal) q w u (ix1 r)
      = accel2 (q (ix2 r 0)) (q (ix2 r 1)) (w (ix2 r 0)) (w (ix2 r 1)) (u (ix2 r 0)) (u (ix2 r 1)) := by
  simp only [
      val_main_v8_apply, val_main_v9_apply, val_main_cst_apply, val_main_v10_apply, val_main_v11_apply,
      val_main_cst_0_apply, val_main_v12_apply, val_main_v13_apply, val_main_cst_1_apply, val_main_v14_apply,
      val_main_v15_apply, val_main_cst_2_apply, val_main_v16_apply, val_main_v17_apply, val_main_cst_3_apply,
      val_main_v18_apply, val_main_v19_apply, val_main_cst_4_apply, val_main_v20_apply, val_main_v21_apply,
      val_main_v22_apply, val_main_v23_apply, val_main_cst_5_apply, val_main_v24_apply, val_main_v25_apply,
      val_main_v26_apply, val_main_v27_apply, val_main_v28_apply, val_main_cst_6_apply, val_main_v29_apply,
      val_main_v30_apply, val_main_cst_7_apply, val_main_v31_apply, val_main_v32_apply, val_main_cst_8_apply,
      val_main_v33_apply, val_main_v34_apply, val_main_v35_apply, val_main_v36_apply, val_main_v37_apply,
      val_main_v38_apply, val_main_v39_apply, val_main_cst_9_apply, val_main_v40_apply, val_main_v41_apply,
      val_main_v42_apply, val_main_v43_apply, val_main_v44_apply, val_main_v47_apply, val_main_v50_apply,
      val_main_v51_apply, val_main_v52_apply, val_main_v53_apply, val_main_v54_apply, val_main_v55_apply,
      val_main_v56_apply, val_main_v57_apply, val_main_v58_apply, val_main_v59_apply, val_main_v60_apply,
      val_main_v61_apply,
      angle1_apply, angle2_apply, rate1_apply, rate2_apply, torque1_apply, torque2_apply,
      Ideal.hostUnary_cos_def, Ideal.hostUnary_sin_def, Ideal.hostDivf_def, Ideal.mulf_def, Ideal.addf_def, Ideal.subf_def]
  rfl

/-! ## The stacked result -/

/-- A vector of 8388608 entries as a one-column array: its entry at (r, 0) is the vector's entry at r. -/
theorem column_of_accel1 (q w u : S8388608x2.Idx → EReal) (r : Fin 8388608) :
    val_main_v62 (F := Ideal) q w u (ix2 r 0) = val_main_v57 (F := Ideal) q w u (ix1 r) := by
  rw [val_main_v62_apply]
  exact congrArg _ (funext fun a => match a with | ⟨0, _⟩ => rfl)

theorem column_of_accel2 (q w u : S8388608x2.Idx → EReal) (r : Fin 8388608) :
    val_main_v63 (F := Ideal) q w u (ix2 r 0) = val_main_v61 (F := Ideal) q w u (ix1 r) := by
  rw [val_main_v63_apply]
  exact congrArg _ (funext fun a => match a with | ⟨0, _⟩ => rfl)

/-- THE REFERENCE'S RESULT is the acceleration array of its three arguments: at (r, 0) the stacked array reads its
    first column at row r, at (r, 1) its second. -/
theorem result_rows (q w u : S8388608x2.Idx → EReal) :
    val_main_v64 (F := Ideal) q w u = rowsOf (n := 8388608) q w u := by
  funext i
  obtain ⟨r, k, rfl⟩ : ∃ (r : Fin 8388608) (k : Fin 2), i = ix2 r k := ⟨i 0, i 1, eq_ix2 i⟩
  rw [rowsOf_ix2]
  unfold val_main_v64
  match k with
  | ⟨0, _⟩ =>
    refine (concatenate_pair_apply_left (t := S8388608x2) (s₁ := S8388608x1) (s₂ := S8388608x1) (1 : Fin 2) _ _
      concatenates_S8388608x1_S8388608x1_S8388608x2_d1 (ix2 r 0 : S8388608x2.Idx) rfl (ix2 r 0 : S8388608x1.Idx)
      (fun b => match b with | ⟨0, _⟩ => rfl | ⟨1, _⟩ => rfl)).trans ?_
    rw [column_of_accel1, accel1_apply]
    rfl
  | ⟨1, _⟩ =>
    refine (concatenate_pair_apply_right (t := S8388608x2) (s₁ := S8388608x1) (s₂ := S8388608x1) (1 : Fin 2) _ _
      concatenates_S8388608x1_S8388608x1_S8388608x2_d1 (ix2 r 1 : S8388608x2.Idx) rfl rfl (ix2 r 0 : S8388608x1.Idx)
      (fun b hb => match b with | ⟨0, _⟩ => rfl | ⟨1, _⟩ => absurd rfl hb) rfl).trans ?_
    rw [column_of_accel2, accel2_apply]
    rfl

end Cert.ReferenceIdeal.Rows

end
-- ==== Proof.lean ====
/-
  The joint accelerations of a planar two-link arm, row by row: a tiled kernel against its array-at-once reference,
  equal as extended reals.

  Both programs take an angle, a rate and a torque array of 8388608 rows and two columns and return, in row r, the two
  joint accelerations of the arm whose state and torques are row r of the arguments (the formula is in
  Proof/ArmAccel.lean: the inertia matrix from cos q₂, the bias from sin q₂, the rates and two gravity cosines, then
  Cramer's rule for the 2×2 system). The kernel walks the rows in 4096 blocks of 2048; the reference works on whole
  columns. They apply the same operations in the same order and grouping to the same eight binary32 coefficients, so
  at the ideal instance the two results are the same function of the arguments entry by entry with no law of
  arithmetic between them, and the precondition that the inputs be finite is never opened.

    * Proof/BlockAccel.lean: what the kernel body leaves in an output block is the row formula at each row of the
      three input blocks.
    * Proof/WholeArray.lean: block t of every window is rows 2048·t … 2048·t + 2047 of its array, each point writes
      its block back, the blocks tile the array: the kernel's result array is the row formula over the whole arrays.
    * Proof/RefAccel.lean: the reference's result array is the same.

  The three frames are the kernel's two generated frames and the reference's generated run with its result dropped;
  the idealization rewrote nothing, so there is nothing to preserve.
-/
import proofs.«126508_j38482906972929_2_alg».proof.Defs
import proofs.«126508_j38482906972929_2_alg».proof.Proof.Gen.Kernel
import proofs.«126508_j38482906972929_2_alg».proof.Proof.Gen.Kernel.Skeleton
import proofs.«126508_j38482906972929_2_alg».proof.Proof.Gen.Kernel.Launch
import proofs.«126508_j38482906972929_2_alg».proof.Proof.Gen.Kernel.Points
import proofs.«126508_j38482906972929_2_alg».proof.Proof.Gen.Kernel.Frame
import proofs.«126508_j38482906972929_2_alg».proof.Proof.Gen.KernelIdeal
import proofs.«126508_j38482906972929_2_alg».proof.Proof.Gen.KernelIdeal.Skeleton
import proofs.«126508_j38482906972929_2_alg».proof.Proof.Gen.KernelIdeal.Launch
import proofs.«126508_j38482906972929_2_alg».proof.Proof.Gen.KernelIdeal.Points
import proofs.«126508_j38482906972929_2_alg».proof.Proof.Gen.KernelIdeal.Frame
import proofs.«126508_j38482906972929_2_alg».proof.Proof.Gen.ReferenceIdeal
import proofs.«126508_j38482906972929_2_alg».proof.Proof.Gen.Pre_finite_inputs
import proofs.«126508_j38482906972929_2_alg».proof.Proof.Gen.KernelIdeal.Value
import proofs.«126508_j38482906972929_2_alg».proof.Proof.Gen.ReferenceIdeal.Run
import proofs.«126508_j38482906972929_2_alg».proof.Proof.Gen.ReferenceIdeal.Read
import proofs.«126508_j38482906972929_2_alg».proof.Proof.ArmAccel
import proofs.«126508_j38482906972929_2_alg».proof.Proof.BlockAccel
import proofs.«126508_j38482906972929_2_alg».proof.Proof.WholeArray
import proofs.«126508_j38482906972929_2_alg».proof.Proof.RefAccel
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference runs and leaves its arguments alone: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal instance: no rewrite to account for. -/
theorem preserves : Cert.preserves_Kernel_KernelIdeal := trivial

/-- From memories that agree on the three arguments both programs end with the acceleration array of those arguments
    in their result: the kernel block by block, the reference column by column. -/
theorem algebraic : Cert.algebraic_KernelIdeal_ReferenceIdeal := by
  intro m ρ m' ρ' _ hagree
  refine ⟨fun c => Cert.KernelIdeal.Whole.accelArray m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.Rows.result_rows,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
